-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S28x540 : Shape := ⟨2, ![28, 540]⟩
abbrev S512x512 : Shape := ⟨2, ![512, 512]⟩
abbrev S_ : Shape := ⟨0, ![]⟩

class Facts : Prop where
  bcast_S_S28x540 : S_.BroadcastsInDim S28x540 (![] : Fin 0 → Fin S28x540.rank)
  reducesTo_S28x540_S_d0_1 : S28x540.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S28x540 .f32) (main_arg1 : FVec F S512x512 .f32) : IVec S_ 1 :=
  let main_v0 : FVec F S28x540 .f32 := Host.absf main_arg0
  let main_cst : FVec F S_ .f32 := constant S_ .f32 0x7F800000#32
  let main_v1 : FVec F S28x540 .f32 := broadcastInDim S28x540 ![] bcast_S_S28x540 main_cst
  let main_v2 : IVec S28x540 1 := cmpf .olt main_v0 main_v1
  let main_c : IVec S_ 1 := constantI S_ 1 1#1
  let main_v3 : IVec S_ 1 := (fun x v => Host.reduce IntOp.andi x v reducesTo_S28x540_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S28x540 : Shape := ⟨2, ![28, 540]⟩
abbrev S512x512 : Shape := ⟨2, ![512, 512]⟩
abbrev S28x512 : Shape := ⟨2, ![28, 512]⟩
abbrev S512x256 : Shape := ⟨2, ![512, 256]⟩
abbrev S28x256 : Shape := ⟨2, ![28, 256]⟩
abbrev S28x28 : Shape := ⟨2, ![28, 28]⟩

abbrev nBuf : Space → Nat
  | .hbm => 3
  | .vmem => 5
  | .smem => 0
  | _ => 0

abbrev bufTy : (tb : Table) → Fin (tcTables nBuf tb) → BufTy
  | .hbm, ⟨0, _⟩ => ⟨S28x540, .f32⟩
  | .hbm, ⟨1, _⟩ => ⟨S512x512, .f32⟩
  | .hbm, ⟨2, _⟩ => ⟨S28x512, .f32⟩
  | .local _ .vmem, ⟨0, _⟩ => ⟨S28x540, .f32⟩
  | .local _ .vmem, ⟨1, _⟩ => ⟨S512x256, .f32⟩
  | .local _ .vmem, ⟨2, _⟩ => ⟨S512x256, .f32⟩
  | .local _ .vmem, ⟨3, _⟩ => ⟨S28x256, .f32⟩
  | .local _ .vmem, ⟨4, _⟩ => ⟨S28x256, .f32⟩
  | _, _ => ⟨S28x540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S28x540 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S28x540_S28x540_0_0 : ∀ a, (![0, 0] : Fin 2 → Nat) a + S28x540.size a ≤ S28x540.size a
  h_S28x540 : 0 < S28x540.numel
  slices_S28x540_o0_0_S28x512 : S28x540.Slices ![0, 0] S28x512
  slices_S28x540_o0_512_S28x28 : S28x540.Slices ![0, 512] S28x28
  inb_S512x256_S512x256_0_0 : ∀ a, (![0, 0] : Fin 2 → Nat) a + S512x256.size a ≤ S512x256.size a
  h_S512x256 : 0 < S512x256.numel
  inb_S28x256_S28x256_0_0 : ∀ a, (![0, 0] : Fin 2 → Nat) a + S28x256.size a ≤ S28x256.size a
  h_S28x256 : 0 < S28x256.numel
  dot_S28x512_S512x256_S28x256_1_0_0_1_n_n_wf : DotDims.WF S28x512 S512x256 S28x256 [1] [0] [0] [1] [] []
  dot_S28x28_S28x256_S28x256_1_0_0_1_n_n_wf : DotDims.WF S28x28 S28x256 S28x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S28x540.size a ≤ S28x540.size a
  hwx0_0 : ∀ i : grid0.Coords, EltTy.bits .f32 = 32 ∨ (Rect.block (s := S28x540) S28x540.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x512.size a
  hwx0_1 : ∀ i : grid0.Coords, EltTy.bits .f32 = 32 ∨ (Rect.block (s := S512x512) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S28x256.size a ≤ S28x512.size a
  hwx0_2 : ∀ i : grid0.Coords, EltTy.bits .f32 = 32 ∨ (Rect.block (s := S28x512) S28x256.size (cc0_transform_2 i) (hinb0_2 i)).WholeWords (EltTy.packing .f32)

variable [Facts₀]

def dot_S28x512_S512x256_S28x256_1_0_0_1_n_n : DotDims S28x512 S512x256 S28x256 where
  lhsContracting := [1]
  rhsContracting := [0]
  lhsNonContracting := [0]
  rhsNonContracting := [1]
  lhsBatch := []
  rhsBatch := []
  wf := dot_S28x512_S512x256_S28x256_1_0_0_1_n_n_wf
def dot_S28x28_S28x256_S28x256_1_0_0_1_n_n : DotDims S28x28 S28x256 S28x256 where
  lhsContracting := [1]
  rhsContracting := [0]
  lhsNonContracting := [0]
  rhsNonContracting := [1]
  lhsBatch := []
  rhsBatch := []
  wf := dot_S28x28_S28x256_S28x256_1_0_0_1_n_n_wf

abbrev win0_0 : Pipeline.Window sig grid0 :=
  Pipeline.Window.ofSpec (Memref.whole main_arg0) S28x540.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S28x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S28x540 : Shape := ⟨2, ![28, 540]⟩
abbrev S512x512 : Shape := ⟨2, ![512, 512]⟩
abbrev S28x512 : Shape := ⟨2, ![28, 512]⟩
abbrev S28x28 : Shape := ⟨2, ![28, 28]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S28x540, .f32⟩
  | .hbm, ⟨1, _⟩ => ⟨S512x512, .f32⟩
  | .hbm, ⟨2, _⟩ => ⟨S28x512, .f32⟩
  | .hbm, ⟨3, _⟩ => ⟨S28x28, .f32⟩
  | .hbm, ⟨4, _⟩ => ⟨S28x512, .f32⟩
  | .hbm, ⟨5, _⟩ => ⟨S28x512, .f32⟩
  | .hbm, ⟨6, _⟩ => ⟨S_, .f32⟩
  | .hbm, ⟨7, _⟩ => ⟨S28x512, .f32⟩
  | .hbm, ⟨8, _⟩ => ⟨S28x512, .f32⟩
  | _, _ => ⟨S28x540, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  slices_S28x540_S28x512_0_0 : S28x540.Slices ![0, 0] S28x512
  slices_S28x540_S28x28_0_512 : S28x540.Slices ![0, 512] S28x28
  bcast_S_S28x512 : S_.BroadcastsInDim S28x512 (![] : Fin 0 → Fin S28x512.rank)
  dot_S28x512_S512x512_S28x512_1_0_0_1_n_n_wf : DotDims.WF S28x512 S512x512 S28x512 [1] [0] [0] [1] [] []
  dot_S28x28_S28x512_S28x512_1_0_0_1_n_n_wf : DotDims.WF S28x28 S28x512 S28x512 [1] [0] [0] [1] [] []

variable [Facts₀]

def dot_S28x512_S512x512_S28x512_1_0_0_1_n_n : DotDims S28x512 S512x512 S28x512 where
  lhsContracting := [1]
  rhsContracting := [0]
  lhsNonContracting := [0]
  rhsNonContracting := [1]
  lhsBatch := []
  rhsBatch := []
  wf := dot_S28x512_S512x512_S28x512_1_0_0_1_n_n_wf
def dot_S28x28_S28x512_S28x512_1_0_0_1_n_n : DotDims S28x28 S28x512 S28x512 where
  lhsContracting := [1]
  rhsContracting := [0]
  lhsNonContracting := [0]
  rhsNonContracting := [1]
  lhsBatch := []
  rhsBatch := []
  wf := dot_S28x28_S28x512_S28x512_1_0_0_1_n_n_wf

class Facts : Prop extends Facts₀ where

variable [Facts]
-- ==== Proof.GcnSpec.lean ====
/-
  One graph-convolution layer on 28 nodes, as a function of its two argument arrays.

  The packed array a : [28, 540] holds, in each node's row, 512 features (columns 0 … 511) followed by
  that node's row of the 28 × 28 adjacency (columns 512 … 539); w : [512, 512] is the weight.  The layer is

      out (n, c) = max ( Σ_{k < 28} a (n, 512 + k) · ( Σ_{j < 512} a (k, j) · w (j, c) ) , 0 ),

  the adjacency applied to the projected features, then the rectifier.  Everything is read over the
  extended reals.  Both programs compute the inner sum first and the outer sum second, so the two sides
  meet in this one expression and no law of the extended reals beyond equality of the summands is needed.
-/
import Idealize.ShloMosaic.Lib.ValueIdx
import Idealize.ShloMosaic.PureOps.Ideal

noncomputable section

namespace Cert.Gcn

open Idealize.ShloMosaic Idealize.ShloMosaic.ValueIdx

/-- Feature j of a node sits in column j of the packed array. -/
abbrev featCol (j : Fin 512) : Fin 540 := ⟨j.val, by have := j.isLt; omega⟩

/-- The adjacency entry towards node k sits in column 512 + k of the packed array. -/
abbrev adjCol (k : Fin 28) : Fin 540 := ⟨512 + k.val, by have := k.isLt; omega⟩

/-- The projected features: node n's features times column c of the weight. -/
def project (a : (⟨2, ![28, 540]⟩ : Shape).Idx → EReal) (w : (⟨2, ![512, 512]⟩ : Shape).Idx → EReal)
    (n : Fin 28) (c : Fin 512) : EReal :=
  ∑ j : Fin 512, a (ix2 n (featCol j)) * w (ix2 j c)

/-- The layer's output at node n and output feature c: the adjacency row of n against the projected
    features of every node, cut off below at zero. -/
def layerAt (a : (⟨2, ![28, 540]⟩ : Shape).Idx → EReal) (w : (⟨2, ![512, 512]⟩ : Shape).Idx → EReal)
    (n : Fin 28) (c : Fin 512) : EReal :=
  max (∑ k : Fin 28, a (ix2 n (adjCol k)) * project a w k c) 0

/-- The layer as a whole array [28, 512]. -/
def layer (a : (⟨2, ![28, 540]⟩ : Shape).Idx → EReal) (w : (⟨2, ![512, 512]⟩ : Shape).Idx → EReal) :
    (⟨2, ![28, 512]⟩ : Shape).Idx → EReal :=
  fun i => layerAt a w (i 0) (i 1)

end Cert.Gcn

end
-- ==== Proof.RefLayer.lean ====
/-
  The reference computes the layer.

  Its result is the maximum with zero of a product of two matrices: the left one is columns 512 … 539 of
  the packed array (the adjacency), the right one is itself the product of columns 0 … 511 of the packed
  array (the features) with the weight.  Read at an index (n, c), the outer product is the sum over the 28
  nodes k of adjacency (n, k) times the inner product at (k, c), and the inner product at (k, c) is the sum
  over the 512 features j of feature (k, j) times weight (j, c): the layer's own expression.
-/
import proofs.«166506_g55121610277622_cont_9to1_m_1022_8_alg».proof.Proof.Gen.ReferenceIdeal.Read
import proofs.«166506_g55121610277622_cont_9to1_m_1022_8_alg».proof.Proof.GcnSpec

noncomputable section

namespace Cert.ReferenceIdeal.RefValue

open Cert.ReferenceIdeal Cert.ReferenceIdeal.Read Idealize.ShloMosaic Idealize.ShloMosaic.ValueIdx Cert.Gcn

/-- The reference's result, as a function of the two argument arrays, is the layer. -/
theorem ref_is_layer (x0 : S28x540.Idx → EReal) (x1 : S512x512.Idx → EReal) :
    val_main_v4 (F := Ideal) x0 x1 = layer x0 x1 := by
  funext i
  -- the adjacency entry (n, k) is the packed array at (n, 512 + k)
  have e1 : ∀ k : Fin 28, idx_main_v1 (lidx_main_v3 i k) = ix2 (i 0) (adjCol k) := fun k =>
    funext fun a => Fin.ext (by match a with | ⟨0, _⟩ => rfl | ⟨1, _⟩ => rfl)
  -- feature (k, j) is the packed array at (k, j)
  have e2 : ∀ (k : Fin 28) (j : Fin 512), idx_main_v0 (lidx_main_v2 (ridx_main_v3 i k) j) = ix2 k (featCol j) := fun k j =>
    funext fun a => Fin.ext (by match a with | ⟨0, _⟩ => rfl | ⟨1, _⟩ => rfl)
  -- and it meets the weight at (j, c)
  have e3 : ∀ (k : Fin 28) (j : Fin 512), ridx_main_v2 (ridx_main_v3 i k) j = ix2 j (i 1) := fun k j =>
    funext fun a => Fin.ext (by match a with | ⟨0, _⟩ => rfl | ⟨1, _⟩ => rfl)
  rw [val_main_v4_apply, val_main_v3_apply, val_main_call0_v0_apply, val_main_call0_cst_apply]
  simp only [val_main_v1_apply, val_main_v2_apply, val_main_v0_apply, e1, e2, e3, Ideal.maximumf_def, Ideal.ofBits_def,
    Ideal.ofBits_zero_f32]
  rfl

end Cert.ReferenceIdeal.RefValue

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.KernelBlock.lean ====
/-
  One grid step of the kernel computes one half of the layer's output columns.

  At a grid step the kernel holds the whole packed array a : [28, 540] and one half w' : [512, 256] of the
  weight's columns — half b (b = 0 or 1) holds columns 256 b … 256 b + 255.  It cuts the features
  (columns 0 … 511) and the adjacency (columns 512 … 539) out of the packed array, multiplies the features
  by the half weight, multiplies the adjacency by that product, and takes the maximum with zero.  Both
  products start from the zero accumulator, so at the ideal values each is a plain sum of products.  Read
  at the local index (n, q) the stored value is therefore

      max ( Σ_{k < 28} a (n, 512 + k) · ( Σ_{j < 512} a (k, j) · w' (j, q) ) , 0 ),

  which is the layer at (n, 256 b + q) once w' (j, q) is known to be the weight at (j, 256 b + q).
-/
import proofs.«166506_g55121610277622_cont_9to1_m_1022_8_alg».proof.Proof.Gen.KernelIdeal.Skeleton
import proofs.«166506_g55121610277622_cont_9to1_m_1022_8_alg».proof.Proof.GcnSpec
import proofs.«166506_g55121610277622_cont_9to1_m_1022_8_alg».proof.Proof.LibPlainDot
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Gcn Cert.Lib.PlainDot

/-- Column q of the weight's half b is column 256 b + q of the weight. -/
abbrev halfCol (b : Nat) (hb : b ≤ 1) (q : Fin 256) : Fin 512 := ⟨b * 256 + q.val, by have := q.isLt; omega⟩

/-- The features cut out of the packed array: entry (k, j) is the packed array at (k, j). -/
theorem features_apply (x0 : Vec Ideal S28x540 .f32) (k : Fin 28) (j : Fin 512) :
    extractStridedSlice S28x512 ![0, 0] x0 slices_S28x540_o0_0_S28x512 (ix2 k j) = x0 (ix2 k (featCol j)) :=
  extractStridedSlice_apply ![0, 0] x0 slices_S28x540_o0_0_S28x512 (ix2 k j) (ix2 k (featCol j)) (fun a => by
    match a with
    | ⟨0, _⟩ => show k.val = 0 + k.val; omega
    | ⟨1, _⟩ => show j.val = 0 + j.val; omega)

/-- The adjacency cut out of the packed array: entry (n, k) is the packed array at (n, 512 + k). -/
theorem adjacency_apply (x0 : Vec Ideal S28x540 .f32) (n k : Fin 28) :
    extractStridedSlice S28x28 ![0, 512] x0 slices_S28x540_o0_512_S28x28 (ix2 n k) = x0 (ix2 n (adjCol k)) :=
  extractStridedSlice_apply ![0, 512] x0 slices_S28x540_o0_512_S28x28 (ix2 n k) (ix2 n (adjCol k)) (fun a => by
    match a with
    | ⟨0, _⟩ => show n.val = 0 + n.val; omega
    | ⟨1, _⟩ => show 512 + k.val = 512 + k.val; rfl)

/-- The value one grid step stores, at the local index (n, q): the layer at node n and column 256 b + q,
    when the step's weight block is half b of the weight. -/
theorem stored_entry (x0 : Vec Ideal S28x540 .f32) (w : S512x512.Idx → EReal) (x1 : Vec Ideal S512x256 .f32)
    (b : Nat) (hb : b ≤ 1) (h1 : ∀ (j : Fin 512) (q : Fin 256), x1 (ix2 j q) = w (ix2 j (halfCol b hb q)))
    (n : Fin 28) (q : Fin 256) :
    k0_pay1 (F := Ideal) x0 x1 (ix2 n q) = layerAt x0 w n (halfCol b hb q) := by
  have hd1 : dot_S28x512_S512x256_S28x256_1_0_0_1_n_n = DotDims.plain 28 512 256 := rfl
  have hd2 : dot_S28x28_S28x256_S28x256_1_0_0_1_n_n = DotDims.plain 28 28 256 := rfl
  unfold k0_pay1 layerAt project
  rw [hd1, hd2]
  refine (maximumf_apply _ _ (ix2 n q)).trans ?_
  refine congrArg₂ (fun u v : EReal => max u v) ?_ Ideal.ofBits_zero_f32
  refine (matmul_plain_zero_apply none _ _ n q).trans ?_
  refine Finset.sum_congr rfl fun k _ => ?_
  refine congrArg₂ (fun u v : EReal => u * v) (adjacency_apply x0 n k) ?_
  refine (matmul_plain_zero_apply none _ _ k q).trans ?_
  exact Finset.sum_congr rfl fun j _ => congrArg₂ (fun u v : EReal => u * v) (features_apply x0 k j) (h1 j q)

end Cert.KernelIdeal.Block

end
-- ==== Proof.KernelWhole.lean ====
/-
  From the grid steps to the whole output array of the kernel.

  The grid has two steps.  At each step the packed array's window is the whole packed array (its block
  index is (0, 0) at both steps), the weight's window is the half of the weight's columns that the step's
  number selects (block index (0, b)), and the output's window is the same half of the output's columns
  (block index (0, b) again).  So what step b writes back is block (0, b) of ONE array, the layer of the two
  argument arrays: the stored value at the local index (n, q) is the layer at (n, 256 b + q).  The two
  blocks cover all 512 output columns (column c lies in block c / 256), hence after the run the output
  array is the layer, index by index.
-/
import proofs.«166506_g55121610277622_cont_9to1_m_1022_8_alg».proof.Proof.Gen.KernelIdeal.Value
import proofs.«166506_g55121610277622_cont_9to1_m_1022_8_alg».proof.Proof.KernelBlock

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Block Cert.Gcn
open Idealize.ShloMosaic.ValueIdx

variable (m : (ℓ : Loc nD τ sig) → Buf (Elt Ideal) ℓ) (ρ : Dev nD → PrngReg)

/-- The body's loads and its store start at the corner of their buffers. -/
theorem zero_offsets : (![0, 0] : Fin 2 → Nat) = fun _ => 0 := funext fun a => by fin_cases a <;> rfl

/-- The block indices of the three windows, decided over the two grid steps: the packed array's block is
    always (0, 0); the weight's block is (0, b) where the output's is (0, b), and b is 0 or 1. -/
theorem block_indices : ∀ t : Fin cfg0.N,
    win0_0.index t (0 : Fin 2) = 0 ∧ win0_0.index t (1 : Fin 2) = 0
    ∧ win0_1.index t (0 : Fin 2) = 0 ∧ win0_1.index t (1 : Fin 2) = win0_2.index t (1 : Fin 2)
    ∧ win0_2.index t (0 : Fin 2) = 0 ∧ win0_2.index t (1 : Fin 2) ≤ 1 :=
  (by decide +kernel : ∀ t : Fin grid0.N, _)

/-- Each of the two column halves of the output is some step's block. -/
theorem step_of_half : ∀ b : Fin 2, ∃ t : Fin cfg0.N, win0_2.index t = ![0, b.val] :=
  (by decide +kernel : ∀ b : Fin 2, ∃ t : Fin grid0.N, win0_2.index t = ![0, b.val])

/-- At every step the packed array's block is the whole packed array. -/
theorem packed_block_apply (c : Dev nD) (t : Fin cfg0.N) (y : S28x540.Idx) :
    (iblk m c 0 t : Vec Ideal S28x540 .f32) y = V m c main_arg0 y := by
  obtain ⟨e00, e01, -, -, -, -⟩ := block_indices t
  show V m c main_arg0 (((cfg0.win 0).blk t).view.emb y) = V m c main_arg0 y
  refine congrArg (V m c main_arg0) ?_
  funext a
  apply Fin.ext
  match a with
  | ⟨0, _⟩ => show win0_0.index t (0 : Fin 2) * 28 + 1 * (y 0).val = (y 0).val; omega
  | ⟨1, _⟩ => show win0_0.index t (1 : Fin 2) * 540 + 1 * (y 1).val = (y 1).val; omega

/-- At the step whose output block is (0, b) the weight's block, at (j, q), is the weight at (j, 256 b + q). -/
theorem weight_block_apply (c : Dev nD) (t : Fin cfg0.N) (hb : win0_2.index t (1 : Fin 2) ≤ 1) (j : Fin 512) (q : Fin 256) :
    (iblk m c 1 t : Vec Ideal S512x256 .f32) (ix2 j q)
      = V m c main_arg1 (ix2 j (halfCol (win0_2.index t (1 : Fin 2)) hb q)) := by
  obtain ⟨-, -, e10, e11, -, -⟩ := block_indices t
  show V m c main_arg1 (((cfg0.win 1).blk t).view.emb (ix2 j q)) = V m c main_arg1 _
  refine congrArg (V m c main_arg1) ?_
  funext a
  apply Fin.ext
  match a with
  | ⟨0, _⟩ => show win0_1.index t (0 : Fin 2) * 512 + 1 * j.val = j.val; omega
  | ⟨1, _⟩ => show win0_1.index t (1 : Fin 2) * 256 + 1 * q.val = win0_2.index t (1 : Fin 2) * 256 + q.val; omega

/-- What a step writes back is its block of the layer of the two argument arrays. -/
theorem flushed_eq (c : Dev nD) (t : Fin cfg0.N) :
    (dats m 0 c).flushed 2 t
      = ((cfg0.win 2).blk t).view.read (Elt Ideal) (layer (V m c main_arg0) (V m c main_arg1)) := by
  obtain ⟨-, -, -, -, e20, e21⟩ := block_indices t
  rw [Value.flushed2]
  unfold out0_2
  rw [View.canon_unit_zero zero_offsets]
  simp only [View.ld_unit_zero (S := S28x540) zero_offsets, View.ld_unit_zero (S := S512x256) zero_offsets]
  have hx : (iblk m c 0 t : Vec Ideal S28x540 .f32) = V m c main_arg0 := funext (packed_block_apply m c t)
  funext y
  show k0_pay1 (F := Ideal) (iblk m c 0 t) (iblk m c 1 t) y
    = layer (V m c main_arg0) (V m c main_arg1) (((cfg0.win 2).blk t).view.emb y)
  refine ((congrArg (k0_pay1 (F := Ideal) (iblk m c 0 t) (iblk m c 1 t)) (eq_ix2 (n0 := 28) (n1 := 256) y)).trans
    (stored_entry (iblk m c 0 t) (V m c main_arg1) (iblk m c 1 t) (win0_2.index t (1 : Fin 2)) e21
      (weight_block_apply m c t e21) (y 0) (y 1))).trans ?_
  rw [hx]
  show layerAt (V m c main_arg0) (V m c main_arg1) (y 0) (halfCol (win0_2.index t (1 : Fin 2)) e21 (y 1))
    = layerAt (V m c main_arg0) (V m c main_arg1) ((((cfg0.win 2).blk t).view.emb y) 0) ((((cfg0.win 2).blk t).view.emb y) 1)
  refine congrArg₂ (layerAt (V m c main_arg0) (V m c main_arg1)) (Fin.ext ?_) (Fin.ext ?_)
  · show (y 0).val = win0_2.index t (0 : Fin 2) * 28 + 1 * (y 0).val; omega
  · show win0_2.index t (1 : Fin 2) * 256 + (y 1).val = win0_2.index t (1 : Fin 2) * 256 + 1 * (y 1).val; omega

/-- An index of the output array is in a step's block iff each coordinate is in the block's range. -/
theorem mem_block (t : Fin cfg0.N) (i : S28x512.Idx) :
    i ∈ ((cfg0.win 2).blk t).view.set ↔ ∀ a : Fin 2, win0_2.index t a * S28x256.size a ≤ (i a).val
      ∧ (i a).val < win0_2.index t a * S28x256.size a + S28x256.size a := by
  show i ∈ ((View.whole main_v0).slice (win0_2.rect t)).set ↔ _
  rw [View.set_slice_whole, Rect.mem_set_unit]
  exact Iff.rfl

/-- Every index (n, c) of the output array is written back by the step whose block is (0, c / 256). -/
theorem covered (i : S28x512.Idx) :
    ∃ t : Fin cfg0.N, (cfg0.win 2).flush t = true ∧ i ∈ ((cfg0.win 2).blk t).view.set := by
  have hi0 : (i 0).val < 28 := (i 0).isLt
  have hi1 : (i 1).val < 512 := (i 1).isLt
  obtain ⟨t, ht⟩ := step_of_half ⟨(i 1).val / 256, by omega⟩
  have q0 : win0_2.index t (0 : Fin 2) = 0 := congrFun ht 0
  have q1 : win0_2.index t (1 : Fin 2) = (i 1).val / 256 := congrFun ht 1
  refine ⟨t, flush0_2 t, ?_⟩
  rw [mem_block]
  intro a
  match a with
  | ⟨0, _⟩ =>
    show win0_2.index t (0 : Fin 2) * 28 ≤ (i 0).val ∧ (i 0).val < win0_2.index t (0 : Fin 2) * 28 + 28
    omega
  | ⟨1, _⟩ =>
    show win0_2.index t (1 : Fin 2) * 256 ≤ (i 1).val ∧ (i 1).val < win0_2.index t (1 : Fin 2) * 256 + 256
    omega

/-- After the run the output array is the layer of the two argument arrays. -/
theorem final (c : Dev nD) :
    (dats m 0 c).arrAt 2 cfg0.N
      = layer (m ((c : Thread nD τ).loc main_arg0)) (m ((c : Thread nD τ).loc main_arg1)) :=
  (dats m 0 c).arrAt_eq_of_cover 2 (layer (V m c main_arg0) (V m c main_arg1))
    (fun t _ => flushed_eq m c t) covered

/-- The kernel's run, read: the output array ends at the layer of the argument arrays, which end unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  The kernel and the reference are the same graph-convolution layer on 28 nodes.

  Both take the packed array a : [28, 540] (512 features per node, then the node's row of the 28 × 28
  adjacency) and the weight w : [512, 512], and both return

      out (n, c) = max ( Σ_{k < 28} a (n, 512 + k) · ( Σ_{j < 512} a (k, j) · w (j, c) ) , 0 ).

  The reference forms the two matrix products over the whole arrays.  The kernel runs two grid steps, one
  per half of the output's columns: each step multiplies the features by its half of the weight's columns,
  multiplies the adjacency by that product, cuts off at zero, and writes its half of the output.  A column
  half of a matrix product is the product with the column half, entry by entry the very same sum, so at
  the ideal values — where a matrix product into the zero accumulator is a plain sum of products — each
  entry of the kernel's output is the reference's entry with the sums in the same order.  No law of the
  extended reals beyond equality of the summands is used, and the precondition is never opened.

  The modules: GcnSpec (the layer as a function of the two arrays), RefLayer (the reference's result is the
  layer), LibPlainDot (a plain matrix product at the ideal values, read at an index, is the sum over the
  contracted axis), KernelBlock (what one grid step stores is its half of the layer), KernelWhole (the two
  written blocks cover the output array, which therefore ends at the layer).  Nothing was rewritten when the
  kernel was idealized, so the statement relating the kernel to its idealization is empty.
-/
import proofs.«166506_g55121610277622_cont_9to1_m_1022_8_alg».proof.Proof.Gen.Kernel
import proofs.«166506_g55121610277622_cont_9to1_m_1022_8_alg».proof.Proof.Gen.Kernel.Frame
import proofs.«166506_g55121610277622_cont_9to1_m_1022_8_alg».proof.Proof.Gen.KernelIdeal
import proofs.«166506_g55121610277622_cont_9to1_m_1022_8_alg».proof.Proof.Gen.KernelIdeal.Frame
import proofs.«166506_g55121610277622_cont_9to1_m_1022_8_alg».proof.Proof.Gen.KernelIdeal.Value
import proofs.«166506_g55121610277622_cont_9to1_m_1022_8_alg».proof.Proof.Gen.ReferenceIdeal
import proofs.«166506_g55121610277622_cont_9to1_m_1022_8_alg».proof.Proof.Gen.ReferenceIdeal.Run
import proofs.«166506_g55121610277622_cont_9to1_m_1022_8_alg».proof.Proof.Gen.ReferenceIdeal.Read
import proofs.«166506_g55121610277622_cont_9to1_m_1022_8_alg».proof.Proof.Gen.Pre_finite_inputs
import proofs.«166506_g55121610277622_cont_9to1_m_1022_8_alg».proof.Proof.RefLayer
import proofs.«166506_g55121610277622_cont_9to1_m_1022_8_alg».proof.Proof.KernelWhole
import proofs.«166506_g55121610277622_cont_9to1_m_1022_8_alg».proof.Defs

noncomputable section

namespace Cert.Proof

open Idealize.ShloMosaic Idealize.ShloMosaic.TcCoe Idealize.SL.Sem

/-- The kernel as printed runs to the end without a fault and leaves its arguments as they were. -/
theorem frame_kernel [Cert.Kernel.Facts] [Cert.Pre_finite_inputs.Facts] : Cert.frame_Kernel :=
  fun m ρ _ => Cert.Kernel.Gen.frame m ρ

/-- So does the kernel read at the ideal values. -/
theorem frame_kernel_ideal [Cert.KernelIdeal.Facts] [Cert.Pre_finite_inputs.Facts] : Cert.frame_KernelIdeal :=
  fun m ρ _ => Cert.KernelIdeal.Gen.frame m ρ

/-- And the reference: its run, with the statement about its result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the two arguments, the kernel's output array and the reference's result both
    end at the layer of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Gcn.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_is_layer, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
